-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  main_v3
-- ==== Kernel.lean ====
abbrev S4x4096x4096 : Shape := ⟨3, ![4, 4096, 4096]⟩
abbrev S2x2x4096x4096 : Shape := ⟨4, ![2, 2, 4096, 4096]⟩
abbrev S4x512x512 : Shape := ⟨3, ![4, 512, 512]⟩
abbrev S2x2x512x512 : Shape := ⟨4, ![2, 2, 512, 512]⟩
abbrev S1x512x512 : Shape := ⟨3, ![1, 512, 512]⟩
abbrev S512x512 : Shape := ⟨2, ![512, 512]⟩
abbrev S1x1x512x512 : Shape := ⟨4, ![1, 1, 512, 512]⟩
abbrev S4096x2x4096x2 : Shape := ⟨4, ![4096, 2, 4096, 2]⟩
abbrev S8192x8192 : Shape := ⟨2, ![8192, 8192]⟩

abbrev nBuf : Space → Nat
  | .hbm => 4
  | .vmem => 4
  | .smem => 0
  | _ => 0

abbrev bufTy : (tb : Table) → Fin (tcTables nBuf tb) → BufTy
  | .hbm, ⟨0, _⟩ => ⟨S4x4096x4096, .f32⟩
  | .hbm, ⟨1, _⟩ => ⟨S2x2x4096x4096, .f32⟩
  | .hbm, ⟨2, _⟩ => ⟨S4096x2x4096x2, .f32⟩
  | .hbm, ⟨3, _⟩ => ⟨S8192x8192, .f32⟩
  | .local _ .vmem, ⟨0, _⟩ => ⟨S4x512x512, .f32⟩
  | .local _ .vmem, ⟨1, _⟩ => ⟨S4x512x512, .f32⟩
  | .local _ .vmem, ⟨2, _⟩ => ⟨S2x2x512x512, .f32⟩
  | .local _ .vmem, ⟨3, _⟩ => ⟨S2x2x512x512, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  inb_S4x512x512_S1x512x512_1_0_0 : ∀ a, (![1, 0, 0] : Fin 3 → Nat) a + S1x512x512.size a ≤ S4x512x512.size a
  inb_S4x512x512_S1x512x512_2_0_0 : ∀ a, (![2, 0, 0] : Fin 3 → Nat) a + S1x512x512.size a ≤ S4x512x512.size a
  inb_S4x512x512_S1x512x512_3_0_0 : ∀ a, (![3, 0, 0] : Fin 3 → Nat) a + S1x512x512.size a ≤ S4x512x512.size a
  inb_S2x2x512x512_S1x1x512x512_0_0_0_0 : ∀ a, (![0, 0, 0, 0] : Fin 4 → Nat) a + S1x1x512x512.size a ≤ S2x2x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  inb_S2x2x512x512_S1x1x512x512_0_1_0_0 : ∀ a, (![0, 1, 0, 0] : Fin 4 → Nat) a + S1x1x512x512.size a ≤ S2x2x512x512.size a
  inb_S2x2x512x512_S1x1x512x512_1_0_0_0 : ∀ a, (![1, 0, 0, 0] : Fin 4 → Nat) a + S1x1x512x512.size a ≤ S2x2x512x512.size a
  inb_S2x2x512x512_S1x1x512x512_1_1_0_0 : ∀ a, (![1, 1, 0, 0] : Fin 4 → Nat) a + S1x1x512x512.size a ≤ S2x2x512x512.size a
  transposes_S2x2x4096x4096_S4096x2x4096x2_2_0_3_1 : S2x2x4096x4096.Transposes [2, 0, 3, 1] S4096x2x4096x2
  shapeCasts_S4096x2x4096x2_S8192x8192 : S4096x2x4096x2.ShapeCasts S8192x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S4x4096x4096.size a
  hwx0_0 : ∀ i : grid0.Coords, EltTy.bits .f32 = 32 ∨ (Rect.block (s := S4x4096x4096) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2x512x512.size a ≤ S2x2x4096x4096.size a
  hwx0_1 : ∀ i : grid0.Coords, EltTy.bits .f32 = 32 ∨ (Rect.block (s := S2x2x4096x4096) S2x2x512x512.size (cc0_transform_1 i) (hinb0_1 i)).WholeWords (EltTy.packing .f32)

variable [Facts₀]

abbrev win0_0 : Pipeline.Window sig grid0 :=
  Pipeline.Window.ofSpec (Memref.whole main_arg0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x2x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S1x4096x4096 : Shape := ⟨3, ![1, 4096, 4096]⟩
abbrev S4096x4096 : Shape := ⟨2, ![4096, 4096]⟩
abbrev S_ : Shape := ⟨0, ![]⟩
abbrev S4096x4096x1 : Shape := ⟨3, ![4096, 4096, 1]⟩
abbrev S4096x4096x2 : Shape := ⟨3, ![4096, 4096, 2]⟩
abbrev S4096x8192 : Shape := ⟨2, ![4096, 8192]⟩
abbrev S4096x1x8192 : Shape := ⟨3, ![4096, 1, 8192]⟩
abbrev S4096x2x8192 : Shape := ⟨3, ![4096, 2, 8192]⟩
abbrev S8192x8192 : Shape := ⟨2, ![8192, 8192]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x4096, .f32⟩
  | .hbm, ⟨2, _⟩ => ⟨S4096x4096, .f32⟩
  | .hbm, ⟨3, _⟩ => ⟨S1x4096x4096, .f32⟩
  | .hbm, ⟨4, _⟩ => ⟨S4096x4096, .f32⟩
  | .hbm, ⟨5, _⟩ => ⟨S1x4096x4096, .f32⟩
  | .hbm, ⟨6, _⟩ => ⟨S4096x4096, .f32⟩
  | .hbm, ⟨7, _⟩ => ⟨S1x4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096x1, .f32⟩
  | .hbm, ⟨34, _⟩ => ⟨S4096x4096x1, .f32⟩
  | .hbm, ⟨35, _⟩ => ⟨S4096x4096x2, .f32⟩
  | .hbm, ⟨36, _⟩ => ⟨S4096x8192, .f32⟩
  | .hbm, ⟨37, _⟩ => ⟨S4096x4096x1, .f32⟩
  | .hbm, ⟨38, _⟩ => ⟨S4096x4096x1, .f32⟩
  | .hbm, ⟨39, _⟩ => ⟨S4096x4096x2, .f32⟩
  | .hbm, ⟨40, _⟩ => ⟨S4096x8192, .f32⟩
  | .hbm, ⟨41, _⟩ => ⟨S4096x1x8192, .f32⟩
  | .hbm, ⟨42, _⟩ => ⟨S4096x1x8192, .f32⟩
  | .hbm, ⟨43, _⟩ => ⟨S4096x2x8192, .f32⟩
  | .hbm, ⟨44, _⟩ => ⟨S8192x8192, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst_0 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_1 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_2 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩

abbrev nD : Nat := 1
abbrev τ : Topo := Topo.v7x

variable {F : FTy → Type} [FloatOps F]

class Facts₀ : Prop where
  slices_S4x4096x4096_S1x4096x4096_0_0_0 : S4x4096x4096.Slices ![0, 0, 0] S1x4096x4096
  shapeCasts_S1x4096x4096_S4096x4096 : S1x4096x4096.ShapeCasts S4096x4096
  slices_S4x4096x4096_S1x4096x4096_1_0_0 : S4x4096x4096.Slices ![1, 0, 0] S1x4096x4096
  slices_S4x4096x4096_S1x4096x4096_2_0_0 : S4x4096x4096.Slices ![2, 0, 0] S1x4096x4096
  slices_S4x4096x4096_S1x4096x4096_3_0_0 : S4x4096x4096.Slices ![3, 0, 0] S1x4096x4096
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  shapeCasts_S4096x4096x2_S4096x8192 : S4096x4096x2.ShapeCasts S4096x8192
  bcast_S4096x8192_S4096x1x8192_0_2 : S4096x8192.BroadcastsInDim S4096x1x8192 (![0, 2] : Fin 2 → Fin S4096x1x8192.rank)
  concatenates_S4096x1x8192_S4096x1x8192_S4096x2x8192_d1 : Shape.Concatenates [S4096x1x8192, S4096x1x8192] S4096x2x8192 1
  shapeCasts_S4096x2x8192_S8192x8192 : S4096x2x8192.ShapeCasts S8192x8192

variable [Facts₀]

class Facts : Prop extends Facts₀ where

variable [Facts]
-- ==== Proof.Haar.lean ====
/-
  One step of the inverse two-dimensional Haar transform, as a function of the coefficient array.

  The argument is four planes of 4096 × 4096 coefficients: plane 0 the averages, planes 1, 2 and 3 the row,
  column and diagonal details. Each location (p, q) of the planes becomes a 2 × 2 block of the 8192 × 8192 image:
  the pixel in corner (a, b) of the block, at row 2p + a and column 2q + b, is

      (c0 ± c1 ± c2 ± c3) · ½,

  the sign of c1 negative in the lower row (a = 1), that of c2 negative in the right column (b = 1), that of c3
  their product. The sums are written left to right, as both programs write them, so that no law of the extended
  reals beyond reading a definition is needed: the two programs compute the same term, and only lay it out by
  different routes. The factor ½ stays the 32-bit word both programs carry; it is never evaluated.
-/
import Idealize.ShloMosaic.PureOps.Ideal
import Idealize.ShloMosaic.Lib.ValueIdx

noncomputable section

namespace Cert.Haar

open Idealize.ShloMosaic Idealize.ShloMosaic.ValueIdx

/-- The factor one half, as the word both programs carry. -/
abbrev half : EReal := Ideal.ofBits .f32 0x3F000000#32

/-- Corner (a, b) of the 2 × 2 block made from the four coefficients of one location; a corner coordinate other than
    0 counts as 1. -/
def comb (a b : Nat) (c0 c1 c2 c3 : EReal) : EReal :=
  if a = 0 then
    if b = 0 then (c0 + c1 + c2 + c3) * half else (c0 + c1 - c2 - c3) * half
  else
    if b = 0 then (c0 - c1 + c2 - c3) * half else (c0 - c1 - c2 + c3) * half

theorem comb_00 (c0 c1 c2 c3 : EReal) : comb 0 0 c0 c1 c2 c3 = (c0 + c1 + c2 + c3) * half := by
  unfold comb; rw [if_pos rfl, if_pos rfl]
theorem comb_01 (c0 c1 c2 c3 : EReal) : comb 0 1 c0 c1 c2 c3 = (c0 + c1 - c2 - c3) * half := by
  unfold comb; rw [if_pos rfl, if_neg (by decide)]
theorem comb_10 (c0 c1 c2 c3 : EReal) : comb 1 0 c0 c1 c2 c3 = (c0 - c1 + c2 - c3) * half := by
  unfold comb; rw [if_neg (by decide), if_pos rfl]
theorem comb_11 (c0 c1 c2 c3 : EReal) : comb 1 1 c0 c1 c2 c3 = (c0 - c1 - c2 + c3) * half := by
  unfold comb; rw [if_neg (by decide), if_neg (by decide)]

/-- The coefficient array: four planes of 4096 × 4096 extended reals. -/
abbrev Coef : Type := (⟨3, ![4, 4096, 4096]⟩ : Shape).Idx → EReal

/-- Corner (a, b) of the block of location (p, q): the four planes read at (p, q) and combined. -/
def corner (x : Coef) (a b : Nat) (p q : Fin 4096) : EReal :=
  comb a b (x (ix3 (0 : Fin 4) p q)) (x (ix3 (1 : Fin 4) p q)) (x (ix3 (2 : Fin 4) p q)) (x (ix3 (3 : Fin 4) p q))

/-- The corners kept apart: entry [a, b, p, q] is corner (a, b) of location (p, q). -/
def quadrants (x : Coef) : (⟨4, ![2, 2, 4096, 4096]⟩ : Shape).Idx → EReal :=
  fun y => corner x (y 0).val (y 1).val (y 2) (y 3)

/-- The quadrants at an entry whose coordinates are named. -/
theorem quadrants_apply (x : Coef) (y : (⟨4, ![2, 2, 4096, 4096]⟩ : Shape).Idx) (a b : Nat) (p q : Fin 4096)
    (ha : (y 0).val = a) (hb : (y 1).val = b) (hp : (y 2).val = p.val) (hq : (y 3).val = q.val) :
    quadrants x y = corner x a b p q := by
  unfold quadrants
  have e2 : (y 2) = p := Fin.ext hp
  have e3 : (y 3) = q := Fin.ext hq
  rw [ha, hb, e2, e3]

/-- The image: pixel (r, s) is corner (r mod 2, s mod 2) of location (r / 2, s / 2). -/
def image (x : Coef) : (⟨2, ![8192, 8192]⟩ : Shape).Idx → EReal :=
  fun i => corner x ((i 0).val % 2) ((i 1).val % 2)
    ⟨(i 0).val / 2, by have h : (i 0).val < 8192 := (i 0).isLt; omega⟩
    ⟨(i 1).val / 2, by have h : (i 1).val < 8192 := (i 1).isLt; omega⟩

/-- The image at row 2p + a, column 2q + b. -/
theorem image_apply (x : Coef) (i : (⟨2, ![8192, 8192]⟩ : Shape).Idx) (a b : Nat) (p q : Fin 4096)
    (ha : a < 2) (hb : b < 2) (hr : (i 0).val = 2 * p.val + a) (hs : (i 1).val = 2 * q.val + b) :
    image x i = corner x a b p q := by
  unfold image
  have e1 : (i 0).val % 2 = a := by omega
  have e2 : (i 1).val % 2 = b := by omega
  have e3 : (⟨(i 0).val / 2, by have h : (i 0).val < 8192 := (i 0).isLt; omega⟩ : Fin 4096) = p := Fin.ext (by show (i 0).val / 2 = p.val; omega)
  have e4 : (⟨(i 1).val / 2, by have h : (i 1).val < 8192 := (i 1).isLt; omega⟩ : Fin 4096) = q := Fin.ext (by show (i 1).val / 2 = q.val; omega)
  rw [e1, e2, e3, e4]

end Cert.Haar

end
-- ==== Proof.RefImage.lean ====
/-
  The reference computes the image of `Cert.Haar`.

  The reference slices the four planes out of the coefficient array, forms the four corner planes
  (c0 ± c1 ± c2 ± c3) · ½ over all locations at once, and then interleaves them twice: the two corners of each row of
  blocks are joined along a new last axis of extent two and flattened, which puts corner b of location (p, q) at
  column 2q + b of row p; the two rows so obtained are joined along a new middle axis of extent two and flattened, which
  puts row a of location row p at image row 2p + a. Read at a pixel (r, s), the second join selects the row r mod 2 at
  p = r / 2, the first join the column s mod 2 at q = s / 2, and what is left is the corner plane at (p, q).
-/
import proofs.«112158_j14989435863554_1_alg».proof.Proof.Gen.ReferenceIdeal.Read
import proofs.«112158_j14989435863554_1_alg».proof.Proof.Haar
import Idealize.ShloMosaic.Lib.Pipeline.Value
import Idealize.ShloMosaic.Lib.ValueIdx

noncomputable section

namespace Cert.ReferenceIdeal.RefImage

open Cert.ReferenceIdeal Cert.ReferenceIdeal.Read Cert.Haar
open Idealize.ShloMosaic Idealize.ShloMosaic.ValueIdx

/-! ## The four planes at a location -/

/-- Plane 0 at location (p, q). -/
theorem plane0 (x : Coef) (p q : Fin 4096) : val_main_v1 (F := Ideal) x (ix2 p q) = x (ix3 (0 : Fin 4) p q) := by
  have hp : p.val < 4096 := p.isLt
  have hq : q.val < 4096 := q.isLt
  rw [val_main_v1_apply, val_main_v0_apply]
  refine congrArg x (funext fun a => Fin.ext ?_)
  match a with
  | ⟨0, _⟩ => rfl
  | ⟨1, _⟩ => show (p.val * 4096 + q.val) / 4096 % 4096 = p.val; omega
  | ⟨2, _⟩ => show (p.val * 4096 + q.val) % 4096 = q.val; omega

/-- Plane 1 at location (p, q). -/
theorem plane1 (x : Coef) (p q : Fin 4096) : val_main_v3 (F := Ideal) x (ix2 p q) = x (ix3 (1 : Fin 4) p q) := by
  have hp : p.val < 4096 := p.isLt
  have hq : q.val < 4096 := q.isLt
  rw [val_main_v3_apply, val_main_v2_apply]
  refine congrArg x (funext fun a => Fin.ext ?_)
  match a with
  | ⟨0, _⟩ => rfl
  | ⟨1, _⟩ => show (p.val * 4096 + q.val) / 4096 % 4096 = p.val; omega
  | ⟨2, _⟩ => show (p.val * 4096 + q.val) % 4096 = q.val; omega

/-- Plane 2 at location (p, q). -/
theorem plane2 (x : Coef) (p q : Fin 4096) : val_main_v5 (F := Ideal) x (ix2 p q) = x (ix3 (2 : Fin 4) p q) := by
  have hp : p.val < 4096 := p.isLt
  have hq : q.val < 4096 := q.isLt
  rw [val_main_v5_apply, val_main_v4_apply]
  refine congrArg x (funext fun a => Fin.ext ?_)
  match a with
  | ⟨0, _⟩ => rfl
  | ⟨1, _⟩ => show (p.val * 4096 + q.val) / 4096 % 4096 = p.val; omega
  | ⟨2, _⟩ => show (p.val * 4096 + q.val) % 4096 = q.val; omega

/-- Plane 3 at location (p, q). -/
theorem plane3 (x : Coef) (p q : Fin 4096) : val_main_v7 (F := Ideal) x (ix2 p q) = x (ix3 (3 : Fin 4) p q) := by
  have hp : p.val < 4096 := p.isLt
  have hq : q.val < 4096 := q.isLt
  rw [val_main_v7_apply, val_main_v6_apply]
  refine congrArg x (funext fun a => Fin.ext ?_)
  match a with
  | ⟨0, _⟩ => rfl
  | ⟨1, _⟩ => show (p.val * 4096 + q.val) / 4096 % 4096 = p.val; omega
  | ⟨2, _⟩ => show (p.val * 4096 + q.val) % 4096 = q.val; omega

/-! ## The four corner planes at a location -/

/-- The upper left corners. -/
theorem corner00 (x : Coef) (p q : Fin 4096) : val_main_v12 (F := Ideal) x (ix2 p q) = corner x 0 0 p q := by
  rw [val_main_v12_apply, val_main_v10_apply, val_main_v9_apply, val_main_v8_apply, val_main_v11_apply, val_main_cst_apply,
    plane0, plane1, plane2, plane3]
  unfold corner; rw [comb_00]; rfl

/-- The upper right corners. -/
theorem corner01 (x : Coef) (p q : Fin 4096) : val_main_v17 (F := Ideal) x (ix2 p q) = corner x 0 1 p q := by
  rw [val_main_v17_apply, val_main_v15_apply, val_main_v14_apply, val_main_v13_apply, val_main_v16_apply, val_main_cst_0_apply,
    plane0, plane1, plane2, plane3]
  unfold corner; rw [comb_01]; rfl

/-- The lower left corners. -/
theorem corner10 (x : Coef) (p q : Fin 4096) : val_main_v22 (F := Ideal) x (ix2 p q) = corner x 1 0 p q := by
  rw [val_main_v22_apply, val_main_v20_apply, val_main_v19_apply, val_main_v18_apply, val_main_v21_apply, val_main_cst_1_apply,
    plane0, plane1, plane2, plane3]
  unfold corner; rw [comb_10]; rfl

/-- The lower right corners. -/
theorem corner11 (x : Coef) (p q : Fin 4096) : val_main_v27 (F := Ideal) x (ix2 p q) = corner x 1 1 p q := by
  rw [val_main_v27_apply, val_main_v25_apply, val_main_v24_apply, val_main_v23_apply, val_main_v26_apply, val_main_cst_2_apply,
    plane0, plane1, plane2, plane3]
  unfold corner; rw [comb_11]; rfl

/-! ## The two interleavings -/

/-- The last unit axis the reference adds before a join does not move a location. -/
theorem loc_v28 (p q : Fin 4096) : idx_main_v28 (ix3 p q (0 : Fin 1)) = ix2 p q :=
  funext fun d => by match d with | ⟨0, _⟩ => rfl | ⟨1, _⟩ => rfl
theorem loc_v29 (p q : Fin 4096) : idx_main_v29 (ix3 p q (0 : Fin 1)) = ix2 p q :=
  funext fun d => by match d with | ⟨0, _⟩ => rfl | ⟨1, _⟩ => rfl
theorem loc_v32 (p q : Fin 4096) : idx_main_v32 (ix3 p q (0 : Fin 1)) = ix2 p q :=
  funext fun d => by match d with | ⟨0, _⟩ => rfl | ⟨1, _⟩ => rfl
theorem loc_v33 (p q : Fin 4096) : idx_main_v33 (ix3 p q (0 : Fin 1)) = ix2 p q :=
  funext fun d => by match d with | ⟨0, _⟩ => rfl | ⟨1, _⟩ => rfl
/-- Nor does the middle unit axis move a row and a column. -/
theorem loc_v36 (p : Fin 4096) (s : Fin 8192) : idx_main_v36 (ix3 p (0 : Fin 1) s) = ix2 p s :=
  funext fun d => by match d with | ⟨0, _⟩ => rfl | ⟨1, _⟩ => rfl
theorem loc_v37 (p : Fin 4096) (s : Fin 8192) : idx_main_v37 (ix3 p (0 : Fin 1) s) = ix2 p s :=
  funext fun d => by match d with | ⟨0, _⟩ => rfl | ⟨1, _⟩ => rfl

/-- The upper rows: row p of the upper corners, its columns interleaved, holds at column 2q + b corner (0, b) of
    location (p, q). -/
theorem upper (x : Coef) (p : Fin 4096) (s : Fin 8192) (q : Fin 4096) (b : Nat) (hb : b < 2) (hs : s.val = 2 * q.val + b) :
    val_main_v31 (F := Ideal) x (ix2 p s) = corner x 0 b p q := by
  have hp : p.val < 4096 := p.isLt
  have hq : q.val < 4096 := q.isLt
  rw [val_main_v31_apply]; unfold val_main_v30
  have hb' : b = 0 ∨ b = 1 := by omega
  rcases hb' with rfl | rfl
  · refine (concatenate_pair_apply_left (t := S4096x4096x2) (s₁ := S4096x4096x1) (s₂ := S4096x4096x1) _ _ _ _ _ rfl (ix3 p q (0 : Fin 1)) (fun d => ?_)).trans ?_
    · match d with
      | ⟨0, _⟩ => show p.val = (p.val * 8192 + s.val) / 8192; omega
      | ⟨1, _⟩ => show q.val = (p.val * 8192 + s.val) / 2 % 4096; omega
      | ⟨2, _⟩ => show 0 = (p.val * 8192 + s.val) % 2; omega
    · rw [val_main_v28_apply, loc_v28]; exact corner00 x p q
  · refine (concatenate_pair_apply_right (t := S4096x4096x2) (s₁ := S4096x4096x1) (s₂ := S4096x4096x1) _ _ _ _ _ rfl rfl (ix3 p q (0 : Fin 1)) (fun d hd => ?_) ?_).trans ?_
    · match d with
      | ⟨0, _⟩ => show p.val = (p.val * 8192 + s.val) / 8192; omega
      | ⟨1, _⟩ => show q.val = (p.val * 8192 + s.val) / 2 % 4096; omega
      | ⟨2, _⟩ => exact absurd rfl hd
    · show 0 + 1 = (p.val * 8192 + s.val) % 2; omega
    · rw [val_main_v29_apply, loc_v29]; exact corner01 x p q

/-- The lower rows, likewise: corner (1, b) of location (p, q) at column 2q + b of row p. -/
theorem lower (x : Coef) (p : Fin 4096) (s : Fin 8192) (q : Fin 4096) (b : Nat) (hb : b < 2) (hs : s.val = 2 * q.val + b) :
    val_main_v35 (F := Ideal) x (ix2 p s) = corner x 1 b p q := by
  have hp : p.val < 4096 := p.isLt
  have hq : q.val < 4096 := q.isLt
  rw [val_main_v35_apply]; unfold val_main_v34
  have hb' : b = 0 ∨ b = 1 := by omega
  rcases hb' with rfl | rfl
  · refine (concatenate_pair_apply_left (t := S4096x4096x2) (s₁ := S4096x4096x1) (s₂ := S4096x4096x1) _ _ _ _ _ rfl (ix3 p q (0 : Fin 1)) (fun d => ?_)).trans ?_
    · match d with
      | ⟨0, _⟩ => show p.val = (p.val * 8192 + s.val) / 8192; omega
      | ⟨1, _⟩ => show q.val = (p.val * 8192 + s.val) / 2 % 4096; omega
      | ⟨2, _⟩ => show 0 = (p.val * 8192 + s.val) % 2; omega
    · rw [val_main_v32_apply, loc_v32]; exact corner10 x p q
  · refine (concatenate_pair_apply_right (t := S4096x4096x2) (s₁ := S4096x4096x1) (s₂ := S4096x4096x1) _ _ _ _ _ rfl rfl (ix3 p q (0 : Fin 1)) (fun d hd => ?_) ?_).trans ?_
    · match d with
      | ⟨0, _⟩ => show p.val = (p.val * 8192 + s.val) / 8192; omega
      | ⟨1, _⟩ => show q.val = (p.val * 8192 + s.val) / 2 % 4096; omega
      | ⟨2, _⟩ => exact absurd rfl hd
    · show 0 + 1 = (p.val * 8192 + s.val) % 2; omega
    · rw [val_main_v33_apply, loc_v33]; exact corner11 x p q

/-! ## The reference's result -/

/-- The reference's result is the image: the upper and lower rows interleaved put row a of the blocks of row p at
    image row 2p + a. -/
theorem ref_image (x : Coef) : val_main_v39 (F := Ideal) x = image x := by
  funext i
  have h0 : (i 0).val < 8192 := (i 0).isLt
  have h1 : (i 1).val < 8192 := (i 1).isLt
  obtain ⟨p, a, ha, hr⟩ : ∃ (p : Fin 4096) (a : Nat), a < 2 ∧ (i 0).val = 2 * p.val + a :=
    ⟨⟨(i 0).val / 2, by omega⟩, (i 0).val % 2, by omega, by show (i 0).val = 2 * ((i 0).val / 2) + (i 0).val % 2; omega⟩
  obtain ⟨q, b, hb, hs⟩ : ∃ (q : Fin 4096) (b : Nat), b < 2 ∧ (i 1).val = 2 * q.val + b :=
    ⟨⟨(i 1).val / 2, by omega⟩, (i 1).val % 2, by omega, by show (i 1).val = 2 * ((i 1).val / 2) + (i 1).val % 2; omega⟩
  have hp : p.val < 4096 := p.isLt
  obtain ⟨s, hsv⟩ : ∃ s : Fin 8192, s.val = (i 1).val := ⟨⟨(i 1).val, h1⟩, rfl⟩
  rw [image_apply x i a b p q ha hb hr hs, val_main_v39_apply]; unfold val_main_v38
  have ha' : a = 0 ∨ a = 1 := by omega
  rcases ha' with rfl | rfl
  · refine (concatenate_pair_apply_left (t := S4096x2x8192) (s₁ := S4096x1x8192) (s₂ := S4096x1x8192) _ _ _ _ _ rfl (ix3 p (0 : Fin 1) s) (fun d => ?_)).trans ?_
    · match d with
      | ⟨0, _⟩ => show p.val = ((i 0).val * 8192 + (i 1).val) / 16384; omega
      | ⟨1, _⟩ => show 0 = ((i 0).val * 8192 + (i 1).val) / 8192 % 2; omega
      | ⟨2, _⟩ => show s.val = ((i 0).val * 8192 + (i 1).val) % 8192; omega
    · rw [val_main_v36_apply, loc_v36]; exact upper x p s q b hb (hsv.trans hs)
  · refine (concatenate_pair_apply_right (t := S4096x2x8192) (s₁ := S4096x1x8192) (s₂ := S4096x1x8192) _ _ _ _ _ rfl rfl (ix3 p (0 : Fin 1) s) (fun d hd => ?_) ?_).trans ?_
    · match d with
      | ⟨0, _⟩ => show p.val = ((i 0).val * 8192 + (i 1).val) / 16384; omega
      | ⟨1, _⟩ => exact absurd rfl hd
      | ⟨2, _⟩ => show s.val = ((i 0).val * 8192 + (i 1).val) % 8192; omega
    · show 0 + 1 = ((i 0).val * 8192 + (i 1).val) / 8192 % 2; omega
    · rw [val_main_v37_apply, loc_v37]; exact lower x p s q b hb (hsv.trans hs)

end Cert.ReferenceIdeal.RefImage

end
-- ==== Proof.KernelQuadrants.lean ====
/-
  What the kernel's region leaves: the corners of `Cert.Haar`, kept apart.

  At a grid point the body holds a block of 4 × 512 × 512 coefficients. It reads the four planes of the block, forms the
  four corner planes (c0 ± c1 ± c2 ± c3) · ½, and stores each into its own quarter [a, b, ·, ·] of a 2 × 2 × 512 × 512
  result block. The result block is therefore, entry by entry, the corner (a, b) of the block's location (u, w).
  Point (g, h) of the 8 × 8 grid reads rows 512g … 512g + 511 and columns 512h … 512h + 511 of every plane and
  writes the same rows and columns of every quarter, so the blocks written are the blocks of one array, the
  quadrants of the coefficient array, and together they fill it.
-/
import proofs.«112158_j14989435863554_1_alg».proof.Proof.Gen.KernelIdeal.Frame
import proofs.«112158_j14989435863554_1_alg».proof.Proof.Haar
import Idealize.ShloMosaic.Lib.Pipeline.Value
import Idealize.ShloMosaic.Lib.ValueIdx

set_option maxRecDepth 16384

noncomputable section

namespace Cert.KernelIdeal.Quadrants

open Cert.KernelIdeal Cert.KernelIdeal.Gen Cert.Haar
open Idealize.ShloMosaic Idealize.ShloMosaic.TcCoe Idealize.SL.Sem Idealize.ShloMosaic.ValueIdx
open Idealize.ShloMosaic.Pipeline (Dat)

/-! ## The body's arithmetic at an entry of the block -/

/-- A plane of the block, loaded with its leading unit axis and viewed without it. -/
theorem plane_at (v : Vec Ideal S1x512x512 .f32) (h : S1x512x512.ShapeCasts S512x512) (u w : Fin 512) :
    shapeCast S512x512 v h (ix2 u w) = v (ix3 (0 : Fin 1) u w) := by
  refine shapeCast_apply v h (ix2 u w) (ix3 (0 : Fin 1) u w) ?_
  rw [Shape.rowMajor_val_three, Shape.rowMajor_val_two]
  show (0 * 512 + u.val) * 512 + w.val = u.val * 512 + w.val
  omega

/-- A corner plane stored with two unit axes in front. -/
theorem stored_at (v : FVec Ideal S512x512 .f32) (h : S512x512.ShapeCasts S1x1x512x512) (y : S1x1x512x512.Idx)
    (u w : Fin 512) (hu : (y 2).val = u.val) (hw : (y 3).val = w.val) :
    shapeCast S1x1x512x512 v h y = v (ix2 u w) := by
  have h0 : (y 0).val < 1 := (y 0).isLt
  have h1 : (y 1).val < 1 := (y 1).isLt
  refine shapeCast_apply v h y (ix2 u w) ?_
  rw [Shape.rowMajor_val_two, Shape.rowMajor_val_four]
  show u.val * 512 + w.val = (((y 0).val * 1 + (y 1).val) * 512 + (y 2).val) * 512 + (y 3).val
  omega

/-- Plane k of the block as the body loads it: the block's entries (k, ·, ·). -/
theorem ld0 (x0 : Vec Ideal S4x512x512 .f32) (u w : Fin 512) : View.ld x0 r0_0 (ix3 (0 : Fin 1) u w) = x0 (ix3 (0 : Fin 4) u w) := by
  show x0 (r0_0.idx (ix3 (0 : Fin 1) u w)) = _
  refine congrArg x0 (funext fun a => Fin.ext ?_)
  match a with
  | ⟨0, _⟩ => rfl
  | ⟨1, _⟩ => show 0 + 1 * u.val = u.val; omega
  | ⟨2, _⟩ => show 0 + 1 * w.val = w.val; omega
theorem ld1 (x0 : Vec Ideal S4x512x512 .f32) (u w : Fin 512) : View.ld x0 r0_1 (ix3 (0 : Fin 1) u w) = x0 (ix3 (1 : Fin 4) u w) := by
  show x0 (r0_1.idx (ix3 (0 : Fin 1) u w)) = _
  refine congrArg x0 (funext fun a => Fin.ext ?_)
  match a with
  | ⟨0, _⟩ => rfl
  | ⟨1, _⟩ => show 0 + 1 * u.val = u.val; omega
  | ⟨2, _⟩ => show 0 + 1 * w.val = w.val; omega
theorem ld2 (x0 : Vec Ideal S4x512x512 .f32) (u w : Fin 512) : View.ld x0 r0_2 (ix3 (0 : Fin 1) u w) = x0 (ix3 (2 : Fin 4) u w) := by
  show x0 (r0_2.idx (ix3 (0 : Fin 1) u w)) = _
  refine congrArg x0 (funext fun a => Fin.ext ?_)
  match a with
  | ⟨0, _⟩ => rfl
  | ⟨1, _⟩ => show 0 + 1 * u.val = u.val; omega
  | ⟨2, _⟩ => show 0 + 1 * w.val = w.val; omega
theorem ld3 (x0 : Vec Ideal S4x512x512 .f32) (u w : Fin 512) : View.ld x0 r0_3 (ix3 (0 : Fin 1) u w) = x0 (ix3 (3 : Fin 4) u w) := by
  show x0 (r0_3.idx (ix3 (0 : Fin 1) u w)) = _
  refine congrArg x0 (funext fun a => Fin.ext ?_)
  match a with
  | ⟨0, _⟩ => rfl
  | ⟨1, _⟩ => show 0 + 1 * u.val = u.val; omega
  | ⟨2, _⟩ => show 0 + 1 * w.val = w.val; omega

/-- The four planes of a block at (u, w), combined for corner (a, b). -/
def blockCorner (x0 : Vec Ideal S4x512x512 .f32) (a b : Nat) (u w : Fin 512) : EReal :=
  comb a b (x0 (ix3 (0 : Fin 4) u w)) (x0 (ix3 (1 : Fin 4) u w)) (x0 (ix3 (2 : Fin 4) u w)) (x0 (ix3 (3 : Fin 4) u w))

/-- The upper left corner plane the body stores. -/
theorem pay00 (x0 : Vec Ideal S4x512x512 .f32) (y : S1x1x512x512.Idx)
    (u w : Fin 512) (hu : (y 2).val = u.val) (hw : (y 3).val = w.val) :
    k0_pay11 (View.ld x0 r0_0) (View.ld x0 r0_1) (View.ld x0 r0_2) (View.ld x0 r0_3) y = blockCorner x0 0 0 u w := by
  unfold k0_pay11
  refine (stored_at _ _ y u w hu hw).trans ?_
  show (k0_pay4 (View.ld x0 r0_0) (ix2 u w) + k0_pay5 (View.ld x0 r0_1) (ix2 u w) + k0_pay6 (View.ld x0 r0_2) (ix2 u w)
    + k0_pay7 (View.ld x0 r0_3) (ix2 u w)) * half = _
  unfold k0_pay4 k0_pay5 k0_pay6 k0_pay7 blockCorner
  rw [plane_at, plane_at, plane_at, plane_at, ld0, ld1, ld2, ld3, comb_00]

/-- The upper right corner plane. -/
theorem pay01 (x0 : Vec Ideal S4x512x512 .f32) (y : S1x1x512x512.Idx)
    (u w : Fin 512) (hu : (y 2).val = u.val) (hw : (y 3).val = w.val) :
    k0_pay1 (k0_pay8 (View.ld x0 r0_0) (View.ld x0 r0_1) (View.ld x0 r0_2) (View.ld x0 r0_3)) y = blockCorner x0 0 1 u w := by
  unfold k0_pay1
  refine (stored_at _ _ y u w hu hw).trans ?_
  unfold k0_pay8
  show (k0_pay4 (View.ld x0 r0_0) (ix2 u w) + k0_pay5 (View.ld x0 r0_1) (ix2 u w) - k0_pay6 (View.ld x0 r0_2) (ix2 u w)
    - k0_pay7 (View.ld x0 r0_3) (ix2 u w)) * half = _
  unfold k0_pay4 k0_pay5 k0_pay6 k0_pay7 blockCorner
  rw [plane_at, plane_at, plane_at, plane_at, ld0, ld1, ld2, ld3, comb_01]

/-- The lower left corner plane. -/
theorem pay10 (x0 : Vec Ideal S4x512x512 .f32) (y : S1x1x512x512.Idx)
    (u w : Fin 512) (hu : (y 2).val = u.val) (hw : (y 3).val = w.val) :
    k0_pay2 (k0_pay9 (View.ld x0 r0_0) (View.ld x0 r0_1) (View.ld x0 r0_2) (View.ld x0 r0_3)) y = blockCorner x0 1 0 u w := by
  unfold k0_pay2
  refine (stored_at _ _ y u w hu hw).trans ?_
  unfold k0_pay9
  show (k0_pay4 (View.ld x0 r0_0) (ix2 u w) - k0_pay5 (View.ld x0 r0_1) (ix2 u w) + k0_pay6 (View.ld x0 r0_2) (ix2 u w)
    - k0_pay7 (View.ld x0 r0_3) (ix2 u w)) * half = _
  unfold k0_pay4 k0_pay5 k0_pay6 k0_pay7 blockCorner
  rw [plane_at, plane_at, plane_at, plane_at, ld0, ld1, ld2, ld3, comb_10]

/-- The lower right corner plane. -/
theorem pay11 (x0 : Vec Ideal S4x512x512 .f32) (y : S1x1x512x512.Idx)
    (u w : Fin 512) (hu : (y 2).val = u.val) (hw : (y 3).val = w.val) :
    k0_pay3 (k0_pay10 (View.ld x0 r0_0) (View.ld x0 r0_1) (View.ld x0 r0_2) (View.ld x0 r0_3)) y = blockCorner x0 1 1 u w := by
  unfold k0_pay3
  refine (stored_at _ _ y u w hu hw).trans ?_
  unfold k0_pay10
  show (k0_pay4 (View.ld x0 r0_0) (ix2 u w) - k0_pay5 (View.ld x0 r0_1) (ix2 u w) - k0_pay6 (View.ld x0 r0_2) (ix2 u w)
    + k0_pay7 (View.ld x0 r0_3) (ix2 u w)) * half = _
  unfold k0_pay4 k0_pay5 k0_pay6 k0_pay7 blockCorner
  rw [plane_at, plane_at, plane_at, plane_at, ld0, ld1, ld2, ld3, comb_11]

/-! ## The result block as one function of the input block -/

/-- Two corners of a block are one when their coordinates are. -/
theorem blockCorner_congr (x0 : Vec Ideal S4x512x512 .f32) {a a' b b' : Nat} {u u' w w' : Fin 512}
    (ha : a = a') (hb : b = b') (hu : u.val = u'.val) (hw : w.val = w'.val) :
    blockCorner x0 a b u w = blockCorner x0 a' b' u' w' := by
  obtain rfl := ha
  obtain rfl := hb
  obtain rfl := Fin.ext hu
  obtain rfl := Fin.ext hw
  rfl

/-- The result block: entry [a, b, u, w] is corner (a, b) of the block's location (u, w). -/
def blockQuadrants (x0 : Vec Ideal S4x512x512 .f32) : Vec Ideal S2x2x512x512 .f32 := fun y =>
  blockCorner x0 (y 0).val (y 1).val ⟨(y 2).val, (y 2).isLt⟩ ⟨(y 3).val, (y 3).isLt⟩

theorem blockQuadrants_apply (x0 : Vec Ideal S4x512x512 .f32) (y : S2x2x512x512.Idx) (a b : Nat) (u w : Fin 512)
    (ha : (y 0).val = a) (hb : (y 1).val = b) (hu : (y 2).val = u.val) (hw : (y 3).val = w.val) :
    blockQuadrants x0 y = blockCorner x0 a b u w :=
  blockCorner_congr x0 ha hb hu hw

/-- Each of the four stores writes its quarter of that function. -/
theorem piece11 (x0 : Vec Ideal S4x512x512 .f32) (x : S1x1x512x512.Idx) :
    k0_pay3 (k0_pay10 (View.ld x0 r0_0) (View.ld x0 r0_1) (View.ld x0 r0_2) (View.ld x0 r0_3)) x = blockQuadrants x0 (r0_7.emb x) := by
  have h0 : (x 0).val < 1 := (x 0).isLt
  have h1 : (x 1).val < 1 := (x 1).isLt
  refine (pay11 x0 x ⟨(x 2).val, (x 2).isLt⟩ ⟨(x 3).val, (x 3).isLt⟩ rfl rfl).trans (Eq.symm ?_)
  refine blockQuadrants_apply x0 (r0_7.emb x) 1 1 _ _ ?_ ?_ ?_ ?_
  · show 1 + 1 * (x 0).val = 1; omega
  · show 1 + 1 * (x 1).val = 1; omega
  · show 0 + 1 * (x 2).val = (x 2).val; omega
  · show 0 + 1 * (x 3).val = (x 3).val; omega
theorem piece10 (x0 : Vec Ideal S4x512x512 .f32) (x : S1x1x512x512.Idx) :
    k0_pay2 (k0_pay9 (View.ld x0 r0_0) (View.ld x0 r0_1) (View.ld x0 r0_2) (View.ld x0 r0_3)) x = blockQuadrants x0 (r0_6.emb x) := by
  have h0 : (x 0).val < 1 := (x 0).isLt
  have h1 : (x 1).val < 1 := (x 1).isLt
  refine (pay10 x0 x ⟨(x 2).val, (x 2).isLt⟩ ⟨(x 3).val, (x 3).isLt⟩ rfl rfl).trans (Eq.symm ?_)
  refine blockQuadrants_apply x0 (r0_6.emb x) 1 0 _ _ ?_ ?_ ?_ ?_
  · show 1 + 1 * (x 0).val = 1; omega
  · show 0 + 1 * (x 1).val = 0; omega
  · show 0 + 1 * (x 2).val = (x 2).val; omega
  · show 0 + 1 * (x 3).val = (x 3).val; omega
theorem piece01 (x0 : Vec Ideal S4x512x512 .f32) (x : S1x1x512x512.Idx) :
    k0_pay1 (k0_pay8 (View.ld x0 r0_0) (View.ld x0 r0_1) (View.ld x0 r0_2) (View.ld x0 r0_3)) x = blockQuadrants x0 (r0_5.emb x) := by
  have h0 : (x 0).val < 1 := (x 0).isLt
  have h1 : (x 1).val < 1 := (x 1).isLt
  refine (pay01 x0 x ⟨(x 2).val, (x 2).isLt⟩ ⟨(x 3).val, (x 3).isLt⟩ rfl rfl).trans (Eq.symm ?_)
  refine blockQuadrants_apply x0 (r0_5.emb x) 0 1 _ _ ?_ ?_ ?_ ?_
  · show 0 + 1 * (x 0).val = 0; omega
  · show 1 + 1 * (x 1).val = 1; omega
  · show 0 + 1 * (x 2).val = (x 2).val; omega
  · show 0 + 1 * (x 3).val = (x 3).val; omega
theorem piece00 (x0 : Vec Ideal S4x512x512 .f32) (x : S1x1x512x512.Idx) :
    k0_pay11 (View.ld x0 r0_0) (View.ld x0 r0_1) (View.ld x0 r0_2) (View.ld x0 r0_3) x = blockQuadrants x0 (r0_4.emb x) := by
  have h0 : (x 0).val < 1 := (x 0).isLt
  have h1 : (x 1).val < 1 := (x 1).isLt
  refine (pay00 x0 x ⟨(x 2).val, (x 2).isLt⟩ ⟨(x 3).val, (x 3).isLt⟩ rfl rfl).trans (Eq.symm ?_)
  refine blockQuadrants_apply x0 (r0_4.emb x) 0 0 _ _ ?_ ?_ ?_ ?_
  · show 0 + 1 * (x 0).val = 0; omega
  · show 0 + 1 * (x 1).val = 0; omega
  · show 0 + 1 * (x 2).val = (x 2).val; omega
  · show 0 + 1 * (x 3).val = (x 3).val; omega

/-- The four quarters tile the block, so what the body leaves is that function. -/
theorem out_block (x0 : Vec Ideal S4x512x512 .f32) : out0_1 x0 = blockQuadrants x0 := by
  funext y
  unfold out0_1
  refine View.canon_apply_of_pieces (Val := Elt Ideal) (e := .f32) (blockQuadrants x0) _ (fun p hp x => ?_) y (cover0_1 _ _ _ _ y)
  simp only [List.mem_cons, List.mem_nil_iff, or_false] at hp
  rcases hp with rfl | rfl | rfl | rfl
  · exact piece11 x0 x
  · exact piece10 x0 x
  · exact piece01 x0 x
  · exact piece00 x0 x

end Cert.KernelIdeal.Quadrants

end
-- ==== Proof.KernelArray.lean ====
/-
  The array the kernel's region leaves is the quadrants of the coefficient array.

  Point (g, h) of the grid reads, of every plane, the rows 512g … 512g + 511 and the columns 512h … 512h + 511, and
  writes back the same rows and columns of every quarter [a, b, ·, ·] of the result array: the block indices of the
  two windows agree on the row and column axes and are zero on the others, a fact decided once over the 64 points.
  So what a point writes back is its block of ONE array, the quadrants; and the block that holds entry [a, b, p, q] is
  the one of point (p / 512, q / 512), so the blocks fill the array.
-/
import proofs.«112158_j14989435863554_1_alg».proof.Proof.KernelQuadrants

set_option maxRecDepth 16384

noncomputable section

namespace Cert.KernelIdeal.Quadrants

open Cert.KernelIdeal Cert.KernelIdeal.Gen Cert.Haar
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The two windows' block indices over the grid: zero on the plane and quarter axes, equal on the row and column
    axes, and below 8 there. -/
theorem idx_facts : ∀ t : Fin cfg0.N,
    win0_0.index t (0 : Fin 3) = 0 ∧ win0_1.index t (0 : Fin 4) = 0 ∧ win0_1.index t (1 : Fin 4) = 0
    ∧ win0_0.index t (1 : Fin 3) = win0_1.index t (2 : Fin 4) ∧ win0_0.index t (2 : Fin 3) = win0_1.index t (3 : Fin 4)
    ∧ win0_1.index t (2 : Fin 4) ≤ 7 ∧ win0_1.index t (3 : Fin 4) ≤ 7 :=
  (by decide +kernel : ∀ t : Fin grid0.N, _)

/-- Every block of rows and columns is some point's. -/
theorem idx_onto : ∀ (g h : Fin 8), ∃ t : Fin cfg0.N, win0_1.index t = ![0, 0, g.val, h.val] :=
  (by decide +kernel : ∀ (g h : Fin 8), ∃ t : Fin grid0.N, win0_1.index t = ![0, 0, g.val, h.val])

/-- The input block at a point is the coefficient array read at the point's rows and columns. -/
theorem iblk_at (c : Dev nD) (t : Fin cfg0.N) (k : Fin 4) (u w : Fin 512) (p q : Fin 4096)
    (hp : p.val = win0_1.index t (2 : Fin 4) * 512 + u.val) (hq : q.val = win0_1.index t (3 : Fin 4) * 512 + w.val) :
    (iblk m c 0 t : Vec Ideal S4x512x512 .f32) (ix3 k u w) = (V m c main_arg0 : Coef) (ix3 k p q) := by
  obtain ⟨e0, e1, e2, e3, e4, e5, e6⟩ := idx_facts t
  have hk : k.val < 4 := k.isLt
  show V m c main_arg0 (((cfg0.win 0).blk t).view.emb (ix3 k u w)) = V m c main_arg0 (ix3 k p q)
  congr 1
  funext a
  apply Fin.ext
  match a with
  | ⟨0, _⟩ => show win0_0.index t (0 : Fin 3) * 4 + 1 * k.val = k.val; omega
  | ⟨1, _⟩ => show win0_0.index t (1 : Fin 3) * 512 + 1 * u.val = p.val; omega
  | ⟨2, _⟩ => show win0_0.index t (2 : Fin 3) * 512 + 1 * w.val = q.val; omega

/-- A corner of the input block at a point is the corner of the coefficient array at the point's rows and columns. -/
theorem blockCorner_iblk (c : Dev nD) (t : Fin cfg0.N) (a b : Nat) (u w : Fin 512) (p q : Fin 4096)
    (hp : p.val = win0_1.index t (2 : Fin 4) * 512 + u.val) (hq : q.val = win0_1.index t (3 : Fin 4) * 512 + w.val) :
    blockCorner (iblk m c 0 t) a b u w = corner (V m c main_arg0) a b p q := by
  unfold blockCorner corner
  rw [iblk_at m c t 0 u w p q hp hq, iblk_at m c t 1 u w p q hp hq, iblk_at m c t 2 u w p q hp hq, iblk_at m c t 3 u w p q hp hq]

/-- What a point writes back is its block of the quadrants. -/
theorem flushed_eq (c : Dev nD) (t : Fin cfg0.N) :
    (dats m 0 c).flushed 1 t = ((cfg0.win 1).blk t).view.read (Elt Ideal) (quadrants (V m c main_arg0)) := by
  show (cfg0.win 1).cut (grid0.coords t) ((dats m 0 c).after 1 t) = _
  rw [after0_1, show out0_1 (iblk m c 0 t) = blockQuadrants (iblk m c 0 t) from out_block (iblk m c 0 t)]
  obtain ⟨e0, e1, e2, e3, e4, e5, e6⟩ := idx_facts t
  funext y
  have hy0 : (y 0).val < 2 := (y 0).isLt
  have hy1 : (y 1).val < 2 := (y 1).isLt
  have hy2 : (y 2).val < 512 := (y 2).isLt
  have hy3 : (y 3).val < 512 := (y 3).isLt
  have hp : win0_1.index t (2 : Fin 4) * 512 + (y 2).val < 4096 := by omega
  have hq : win0_1.index t (3 : Fin 4) * 512 + (y 3).val < 4096 := by omega
  show blockQuadrants (iblk m c 0 t) y = quadrants (V m c main_arg0) (((cfg0.win 1).blk t).view.emb y)
  refine (blockQuadrants_apply (iblk m c 0 t) y (y 0).val (y 1).val ⟨(y 2).val, hy2⟩ ⟨(y 3).val, hy3⟩ rfl rfl rfl rfl).trans ?_
  refine Eq.trans ?_ (quadrants_apply (V m c main_arg0) (((cfg0.win 1).blk t).view.emb y) (y 0).val (y 1).val ⟨_, hp⟩ ⟨_, hq⟩ ?_ ?_ ?_ ?_).symm
  · exact blockCorner_iblk m c t _ _ _ _ _ _ rfl rfl
  · show win0_1.index t (0 : Fin 4) * 2 + 1 * (y 0).val = (y 0).val; omega
  · show win0_1.index t (1 : Fin 4) * 2 + 1 * (y 1).val = (y 1).val; omega
  · show win0_1.index t (2 : Fin 4) * 512 + 1 * (y 2).val = win0_1.index t (2 : Fin 4) * 512 + (y 2).val; omega
  · show win0_1.index t (3 : Fin 4) * 512 + 1 * (y 3).val = win0_1.index t (3 : Fin 4) * 512 + (y 3).val; omega

/-- An entry of the result array is in a point's block iff each coordinate is in the block's range on its axis. -/
theorem mem_blk (t : Fin cfg0.N) (i : S2x2x4096x4096.Idx) :
    i ∈ ((cfg0.win 1).blk t).view.set ↔ ∀ a : Fin 4, win0_1.index t a * S2x2x512x512.size a ≤ (i a).val
      ∧ (i a).val < win0_1.index t a * S2x2x512x512.size a + S2x2x512x512.size a := by
  show i ∈ ((View.whole main_v0).slice (win0_1.rect t)).set ↔ _
  rw [View.set_slice_whole, Rect.mem_set_unit]
  exact Iff.rfl

/-- Every entry of the result array is in the block some point writes back. -/
theorem covered (i : S2x2x4096x4096.Idx) :
    ∃ t : Fin cfg0.N, (cfg0.win 1).flush t = true ∧ i ∈ ((cfg0.win 1).blk t).view.set := by
  have h0 : (i 0).val < 2 := (i 0).isLt
  have h1 : (i 1).val < 2 := (i 1).isLt
  have h2 : (i 2).val < 4096 := (i 2).isLt
  have h3 : (i 3).val < 4096 := (i 3).isLt
  obtain ⟨t, ht⟩ := idx_onto ⟨(i 2).val / 512, by omega⟩ ⟨(i 3).val / 512, by omega⟩
  have q0 : win0_1.index t (0 : Fin 4) = 0 := congrFun ht 0
  have q1 : win0_1.index t (1 : Fin 4) = 0 := congrFun ht 1
  have q2 : win0_1.index t (2 : Fin 4) = (i 2).val / 512 := congrFun ht 2
  have q3 : win0_1.index t (3 : Fin 4) = (i 3).val / 512 := congrFun ht 3
  refine ⟨t, flush0_1 t, ?_⟩
  rw [mem_blk]
  intro a
  match a with
  | ⟨0, _⟩ => show win0_1.index t (0 : Fin 4) * 2 ≤ (i 0).val ∧ (i 0).val < win0_1.index t (0 : Fin 4) * 2 + 2; omega
  | ⟨1, _⟩ => show win0_1.index t (1 : Fin 4) * 2 ≤ (i 1).val ∧ (i 1).val < win0_1.index t (1 : Fin 4) * 2 + 2; omega
  | ⟨2, _⟩ => show win0_1.index t (2 : Fin 4) * 512 ≤ (i 2).val ∧ (i 2).val < win0_1.index t (2 : Fin 4) * 512 + 512; omega
  | ⟨3, _⟩ => show win0_1.index t (3 : Fin 4) * 512 ≤ (i 3).val ∧ (i 3).val < win0_1.index t (3 : Fin 4) * 512 + 512; omega

/-- The result array after the region: the quadrants of the coefficient array. -/
theorem final (c : Dev nD) : (dats m 0 c).arrAt 1 cfg0.N = quadrants (V m c main_arg0) :=
  (dats m 0 c).arrAt_eq_of_cover 1 (quadrants (V m c main_arg0)) (fun t _ => flushed_eq m c t) covered

end Cert.KernelIdeal.Quadrants

end
-- ==== Proof.Interleave.lean ====
/-
  Depth to space: the corners kept apart, transposed and flattened, are the image.

  The kernel's region leaves the four corner planes apart, entry [a, b, p, q] corner (a, b) of location (p, q). The
  transposition by (2, 0, 3, 1) moves that entry to [p, a, q, b], and flattening [4096, 2, 4096, 2] to [8192, 8192] puts it
  at row 2p + a and column 2q + b: the pixel of `Cert.Haar.image`.
-/
import proofs.«112158_j14989435863554_1_alg».proof.Proof.Haar
import Idealize.ShloMosaic.Lib.Pipeline.Value
import Idealize.ShloMosaic.Lib.ValueIdx

noncomputable section

namespace Cert.Haar

open Idealize.ShloMosaic Idealize.ShloMosaic.ValueIdx

/-- The transposed and flattened quadrants are the image, pixel by pixel. -/
theorem interleave_quadrants (x : Coef)
    (hT : (⟨4, ![2, 2, 4096, 4096]⟩ : Shape).Transposes [2, 0, 3, 1] (⟨4, ![4096, 2, 4096, 2]⟩ : Shape))
    (hC : (⟨4, ![4096, 2, 4096, 2]⟩ : Shape).ShapeCasts (⟨2, ![8192, 8192]⟩ : Shape)) :
    shapeCast (⟨2, ![8192, 8192]⟩ : Shape) (transpose (⟨4, ![4096, 2, 4096, 2]⟩ : Shape) [2, 0, 3, 1] (quadrants x) hT) hC = image x := by
  funext i
  have h0 : (i 0).val < 8192 := (i 0).isLt
  have h1 : (i 1).val < 8192 := (i 1).isLt
  obtain ⟨p, a, ha, hr⟩ : ∃ (p : Fin 4096) (a : Fin 2), a.val < 2 ∧ (i 0).val = 2 * p.val + a.val :=
    ⟨⟨(i 0).val / 2, by omega⟩, ⟨(i 0).val % 2, by omega⟩, by show (i 0).val % 2 < 2; omega,
      by show (i 0).val = 2 * ((i 0).val / 2) + (i 0).val % 2; omega⟩
  obtain ⟨q, b, hb, hs⟩ : ∃ (q : Fin 4096) (b : Fin 2), b.val < 2 ∧ (i 1).val = 2 * q.val + b.val :=
    ⟨⟨(i 1).val / 2, by omega⟩, ⟨(i 1).val % 2, by omega⟩, by show (i 1).val % 2 < 2; omega,
      by show (i 1).val = 2 * ((i 1).val / 2) + (i 1).val % 2; omega⟩
  have hp : p.val < 4096 := p.isLt
  have hq : q.val < 4096 := q.isLt
  rw [image_apply x i a.val b.val p q ha hb hr hs]
  refine (shapeCast_apply _ hC i (ix4 p a q b) ?_).trans ?_
  · rw [Shape.rowMajor_val_four, Shape.rowMajor_val_two]
    show ((p.val * 2 + a.val) * 4096 + q.val) * 2 + b.val = (i 0).val * 8192 + (i 1).val
    omega
  · refine (transpose_apply [2, 0, 3, 1] (quadrants x) hT (ix4 p a q b) (ix4 a b p q) (fun d => ?_)).trans ?_
    · match d with
      | ⟨0, _⟩ => rfl
      | ⟨1, _⟩ => rfl
      | ⟨2, _⟩ => rfl
      | ⟨3, _⟩ => rfl
    · rfl

end Cert.Haar

end
-- ==== Proof.KernelRun.lean ====
/-
  The kernel's run, read: its result is the image of `Cert.Haar`.

  After the region the program transposes the quadrants by (2, 0, 3, 1) and flattens them to 8192 × 8192. The region's
  array is the quadrants of the coefficient array, so the result is the image, pixel by pixel; and the coefficient
  array is left as it was.
-/
import proofs.«112158_j14989435863554_1_alg».proof.Proof.KernelArray
import proofs.«112158_j14989435863554_1_alg».proof.Proof.Interleave
import Idealize.ShloMosaic.Lib.StableHlo.Run

set_option maxRecDepth 16384

noncomputable section

namespace Cert.KernelIdeal.Quadrants

open Cert.KernelIdeal Cert.KernelIdeal.Gen Cert.Haar
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What the lines after the region find in the region's result array: the quadrants of the coefficient array. -/
theorem region_array (c : Dev nD) :
    Pipeline.withArrays (cfgs 0).spec c (V0 m c) (fun w => (dats m 0 c).arrAt w (cfgs 0).N) (Proc.devRef .tc main_v0)
      = quadrants (m ((c : Thread nD τ).loc main_arg0)) :=
  (Pipeline.withArrays_arr spec0 launch0.win.arr_inj c _ _ 1).trans (final m c)

/-- The program's result after the lines that follow the region: the image of the coefficient array. -/
theorem result (c : Dev nD) :
    Pipeline.afterTail₀ cfgs (dats m) 0 (V0 m) [hostOps1] c main_v2 = image (m ((c : Thread nD τ).loc main_arg0)) := by
  unfold Pipeline.afterTail₀
  show StableHlo.after hostOps1 _ (Proc.devRef .tc main_v2) = _
  after_results
  funext i
  show shapeCast S8192x8192 (transpose S4096x2x4096x2 [2, 0, 3, 1]
      (Pipeline.withArrays (cfgs 0).spec c (V0 m c) (fun w => (dats m 0 c).arrAt w (cfgs 0).N) (Proc.devRef .tc main_v0))
      transposes_S2x2x4096x4096_S4096x2x4096x2_2_0_3_1) shapeCasts_S4096x2x4096x2_S8192x8192 i = _
  rw [region_array m c]
  exact congrFun (interleave_quadrants _ _ _) i

/-- The run, read: the result at the image of the coefficient array, the coefficient array unchanged. -/
theorem run : θ_run defs (onTc (τ := τ) (main (F := Ideal))) ⟨m, fun _ => 0, ρ⟩ fun r => ∀ c : Dev nD,
      r.2.mem ((c : Thread nD τ).loc main_v2) = image (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of (win := (cfgs 0).spec) main_v2 (by decide) (by decide))).trans (result m c),
        ((h c).1 0).trans (((dats m 0 c).arrAt_in 0 rfl _).trans ((A_eq m c 0).trans (V_main_arg0 m c)))⟩)
    (run_main m ρ)

end Cert.KernelIdeal.Quadrants

end
-- ==== Proof.lean ====
/-
  One step of the inverse two-dimensional Haar transform: the tiled kernel against the array program.

  The coefficient array holds four planes of 4096 × 4096 numbers. Location (p, q) of the planes becomes the 2 × 2 block of
  the 8192 × 8192 image at rows 2p, 2p + 1 and columns 2q, 2q + 1, the pixel in corner (a, b) being
  (c0 ± c1 ± c2 ± c3) · ½ with the signs of `Cert.Haar.comb`.

  The kernel computes the four corner planes block by block over an 8 × 8 grid, keeps them apart in a [2, 2, 4096, 4096]
  array, and then interleaves them by one transposition and one flattening. The reference computes the four corner
  planes whole and interleaves them by two joins along new unit axes, each followed by a flattening. Both write the
  sums in the same order with the same factor, so at every pixel the two results are the same term of the same four
  coefficients: no law of the extended reals is used, and the precondition (finite coefficients) is never opened.

  The modules: `Haar` states the image as one function of the coefficient array; `RefImage` reads the reference's
  result at a pixel; `KernelQuadrants` reads the kernel body's four stores as one block; `KernelArray` puts the
  blocks together into the quadrants; `Interleave` is the transposition and flattening; `KernelRun` is the kernel's
  run with its result named. Below: the three frames, the (empty) idealization ledger, and the equality of results.
-/
import proofs.«112158_j14989435863554_1_alg».proof.Defs
import proofs.«112158_j14989435863554_1_alg».proof.Proof.Gen.Kernel
import proofs.«112158_j14989435863554_1_alg».proof.Proof.Gen.Kernel.Skeleton
import proofs.«112158_j14989435863554_1_alg».proof.Proof.Gen.Kernel.Launch
import proofs.«112158_j14989435863554_1_alg».proof.Proof.Gen.Kernel.Points
import proofs.«112158_j14989435863554_1_alg».proof.Proof.Gen.Kernel.Frame
import proofs.«112158_j14989435863554_1_alg».proof.Proof.Gen.KernelIdeal
import proofs.«112158_j14989435863554_1_alg».proof.Proof.Gen.KernelIdeal.Skeleton
import proofs.«112158_j14989435863554_1_alg».proof.Proof.Gen.KernelIdeal.Launch
import proofs.«112158_j14989435863554_1_alg».proof.Proof.Gen.KernelIdeal.Points
import proofs.«112158_j14989435863554_1_alg».proof.Proof.Gen.KernelIdeal.Frame
import proofs.«112158_j14989435863554_1_alg».proof.Proof.Gen.ReferenceIdeal
import proofs.«112158_j14989435863554_1_alg».proof.Proof.Gen.Pre_finite_inputs
import proofs.«112158_j14989435863554_1_alg».proof.Proof.Gen.ReferenceIdeal.Run
import proofs.«112158_j14989435863554_1_alg».proof.Proof.Gen.ReferenceIdeal.Read
import proofs.«112158_j14989435863554_1_alg».proof.Proof.RefImage
import proofs.«112158_j14989435863554_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves the coefficient array as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves the coefficient array as it was: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From coefficient arrays that agree, the kernel and the reference both end with the image of that array. -/
theorem algebraic : Cert.algebraic_KernelIdeal_ReferenceIdeal := by
  intro m ρ m' ρ' _ hagree
  refine ⟨fun c => Cert.Haar.image (m ((c.tc : Thread Cert.KernelIdeal.nD Cert.KernelIdeal.τ).loc Cert.KernelIdeal.main_arg0)),
    Cert.KernelIdeal.Quadrants.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefImage.ref_image, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
